-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S1x1x2048x2048 : Shape := ⟨4, ![1, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S1x1x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S1x1x2048x2048 : Shape := ⟨4, ![1, 1, 2048, 2048]⟩
abbrev S_ : Shape := ⟨0, ![]⟩
abbrev S4x1x256x64 : Shape := ⟨4, ![4, 1, 256, 64]⟩
abbrev S4x1x2048x64 : Shape := ⟨4, ![4, 1, 2048, 64]⟩
abbrev S4x256x64 : Shape := ⟨3, ![4, 256, 64]⟩
abbrev S4x1x512x64 : Shape := ⟨4, ![4, 1, 512, 64]⟩
abbrev S4x512x64 : Shape := ⟨3, ![4, 512, 64]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S1x1x2048x2048, .i1⟩
  | .hbm, ⟨4, _⟩ => ⟨S_, .f32⟩
  | .hbm, ⟨5, _⟩ => ⟨S4x16x2048x64, .f32⟩
  | .hbm, ⟨6, _⟩ => ⟨S4x16x2048x64, .f32⟩
  | .hbm, ⟨7, _⟩ => ⟨S4x16x2048x64, .bf16⟩
  | .hbm, ⟨8, _⟩ => ⟨S4x16x2048x64, .bf16⟩
  | .hbm, ⟨9, _⟩ => ⟨S4x16x2048x64, .bf16⟩
  | .hbm, ⟨10, _⟩ => ⟨S4x16x2048x64, .f32⟩
  | .local _ .vmem, ⟨0, _⟩ => ⟨S4x1x256x64, .bf16⟩
  | .local _ .vmem, ⟨1, _⟩ => ⟨S4x1x256x64, .bf16⟩
  | .local _ .vmem, ⟨2, _⟩ => ⟨S4x1x2048x64, .bf16⟩
  | .local _ .vmem, ⟨3, _⟩ => ⟨S4x1x2048x64, .bf16⟩
  | .local _ .vmem, ⟨4, _⟩ => ⟨S4x1x256x64, .f32⟩
  | .local _ .vmem, ⟨5, _⟩ => ⟨S4x1x256x64, .f32⟩
  | .local _ .vmem, ⟨6, _⟩ => ⟨S4x256x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32_15 : BitVec 32 := 0#32
  let c0_i32 : BitVec 32 := 0#32
  let c1_i32 : BitVec 32 := 1#32
  let arg7 : BitVec 32 := Scf.iv c0_i32 c1_i32 k0_t1
  let c1_i32_14 : BitVec 32 := 1#32
  let v11 : BitVec 32 := Scalar.muli arg7 c1_i32_14
  let v12 : BitVec 32 := Scalar.addi c0_i32_15 v11
  let c512_i32 : BitVec 32 := 512#32
  let v13 : BitVec 32 := Scalar.muli v12 c512_i32
  v13
def k0_off1 (k0_t1 : Fin k0_t1_loop.trips) : Fin 4 → Nat :=
  let c0_16 : Index := 0#32
  let c0_17 : Index := 0#32
  let c0_i32_15 : BitVec 32 := 0#32
  let c0_i32 : BitVec 32 := 0#32
  let c1_i32 : BitVec 32 := 1#32
  let arg7 : BitVec 32 := Scf.iv c0_i32 c1_i32 k0_t1
  let c1_i32_14 : BitVec 32 := 1#32
  let v11 : BitVec 32 := Scalar.muli arg7 c1_i32_14
  let v12 : BitVec 32 := Scalar.addi c0_i32_15 v11
  let c512_i32 : BitVec 32 := 512#32
  let v13 : BitVec 32 := Scalar.muli v12 c512_i32
  let v14 : BitVec 32 := v13
  let v15 : Index := Scalar.indexCast v14
  let c0_18 : Index := 0#32
  ![0, 0, v15.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S4x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x1x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4x1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x16x2048x64 : S_.BroadcastsInDim S4x16x2048x64 (![] : Fin 0 → Fin S4x16x2048x64.rank)
  bitsLt_bf16_f32 : FTy.bits .bf16 < FTy.bits .f32
  inb_S4x1x256x64_S4x1x256x64_0_0_0_0 : ∀ a, (![0, 0, 0, 0] : Fin 4 → Nat) a + S4x1x256x64.size a ≤ S4x1x256x64.size a
  h_S4x1x256x64 : 0 < S4x1x256x64.numel
  shapeCasts_S4x1x256x64_S4x256x64 : S4x1x256x64.ShapeCasts S4x256x64
  inb_S4x256x64_S4x256x64_0_0_0 : ∀ a, (![0, 0, 0] : Fin 3 → Nat) a + S4x256x64.size a ≤ S4x256x64.size a
  h_S4x256x64 : 0 < S4x256x64.numel
  shapeCasts_S4x256x64_S4x256x64 : S4x256x64.ShapeCasts S4x256x64
  h_S4x1x512x64 : 0 < S4x1x512x64.numel
  shapeCasts_S4x1x512x64_S4x512x64 : S4x1x512x64.ShapeCasts S4x512x64
  reduces_S4x256x512_S256x512 : S4x256x512.Reduces [0] S256x512
  shapeCasts_S256x512_S1x256x512 : S256x512.ShapeCasts S1x256x512
  broadcasts_S1x256x512_S4x256x512 : S1x256x512.Broadcasts S4x256x512
  shapeCasts_S4x256x64_S4x1x256x64 : S4x256x64.ShapeCasts S4x1x256x64
  dot_S4x256x64_S4x512x64_S4x256x512_2_2_1_1_0_0_wf : DotDims.WF S4x256x64 S4x512x64 S4x256x512 [2] [2] [1] [1] [0] [0]
  dot_S4x256x512_S4x512x64_S4x256x64_2_1_1_2_0_0_wf : DotDims.WF S4x256x512 S4x512x64 S4x256x64 [2] [1] [1] [2] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S4x1x512x64.size a ≤ S4x1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x256x64.size a ≤ S4x16x2048x64.size a
  hwx0_0 : ∀ i : grid0.Coords, EltTy.bits .bf16 = 32 ∨ (Rect.block (s := S4x16x2048x64) S4x1x256x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1x2048x64.size a ≤ S4x16x2048x64.size a
  hwx0_1 : ∀ i : grid0.Coords, EltTy.bits .bf16 = 32 ∨ (Rect.block (s := S4x16x2048x64) S4x1x2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1x2048x64.size a ≤ S4x16x2048x64.size a
  hwx0_2 : ∀ i : grid0.Coords, EltTy.bits .bf16 = 32 ∨ (Rect.block (s := S4x16x2048x64) S4x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x256x64.size a ≤ S4x16x2048x64.size a
  hwx0_3 : ∀ i : grid0.Coords, EltTy.bits .f32 = 32 ∨ (Rect.block (s := S4x16x2048x64) S4x1x256x64.size (cc0_transform_3 i) (hinb0_3 i)).WholeWords (EltTy.packing .f32)

variable [Facts₀]

def dot_S4x256x64_S4x512x64_S4x256x512_2_2_1_1_0_0 : DotDims S4x256x64 S4x512x64 S4x256x512 where
  lhsContracting := [2]
  rhsContracting := [2]
  lhsNonContracting := [1]
  rhsNonContracting := [1]
  lhsBatch := [0]
  rhsBatch := [0]
  wf := dot_S4x256x64_S4x512x64_S4x256x512_2_2_1_1_0_0_wf
def dot_S4x256x512_S4x512x64_S4x256x64_2_1_1_2_0_0 : DotDims S4x256x512 S4x512x64 S4x256x64 where
  lhsContracting := [2]
  rhsContracting := [1]
  lhsNonContracting := [1]
  rhsNonContracting := [2]
  lhsBatch := [0]
  rhsBatch := [0]
  wf := dot_S4x256x512_S4x512x64_S4x256x64_2_1_1_2_0_0_wf

abbrev win0_0 : Pipeline.Window sig grid0 :=
  Pipeline.Window.ofSpec (Memref.whole main_v2) S4x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x1x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S1x1x2048x2048 : Shape := ⟨4, ![1, 1, 2048, 2048]⟩
abbrev S4x16x2048x2048 : Shape := ⟨4, ![4, 16, 2048, 2048]⟩
abbrev S_ : Shape := ⟨0, ![]⟩
abbrev S16x2048x2048 : Shape := ⟨3, ![16, 2048, 2048]⟩
abbrev S1x16x2048x2048 : Shape := ⟨4, ![1, 16, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S1x1x2048x2048, .i1⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S1x16x2048x2048, .f32⟩
  | .hbm, ⟨14, _⟩ => ⟨S4x16x2048x2048, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S16x2048x2048, .f32⟩
  | .hbm, ⟨19, _⟩ => ⟨S1x16x2048x2048, .f32⟩
  | .hbm, ⟨20, _⟩ => ⟨S4x16x2048x2048, .f32⟩
  | .hbm, ⟨21, _⟩ => ⟨S4x16x2048x2048, .f32⟩
  | .hbm, ⟨22, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S16x2048x2048_d0 : S4x16x2048x2048.ReducesTo [0] S16x2048x2048
  h_S_ : 0 < S_.numel
  bcast_S_S16x2048x2048 : S_.BroadcastsInDim S16x2048x2048 (![] : Fin 0 → Fin S16x2048x2048.rank)
  bcast_S16x2048x2048_S1x16x2048x2048_1_2_3 : S16x2048x2048.BroadcastsInDim S1x16x2048x2048 (![1, 2, 3] : Fin 3 → Fin S1x16x2048x2048.rank)
  bcast_S1x16x2048x2048_S4x16x2048x2048_0_1_2_3 : S1x16x2048x2048.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelBody.lean ====
/-
  What one run of the kernel body leaves in the output block, as a pure term of the three input blocks.
  The body zeroes its accumulator, then for each of the key chunks adds that chunk's weighted-value
  product onto what the accumulator holds, and finally copies the accumulator into the output block.
  Every store covers its whole buffer and every load of the accumulator reads the whole buffer, so a
  load after a store reads that store's payload: the accumulator after `k` chunks is the `k`-fold
  chain `acc` below, and the output block is the last link with a unit axis inserted.
-/
import proofs.«169081_j10711648436709_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The accumulator's whole rectangle. -/
abbrev R6 : Rect S4x256x64 := Rect.unit (s := S4x256x64) ![0, 0, 0] S4x256x64.size Facts₀.inb_S4x256x64_S4x256x64_0_0_0

/-- The rectangle of key chunk `k` inside a head's key (or value) block: 512 rows from row `512 k`. -/
abbrev RK (k : Fin k0_t1_loop.trips) : Rect S4x1x2048x64 :=
  Rect.unit (s := S4x1x2048x64) (k0_off1 k) S4x1x512x64.size (Facts₀.k0_off1_inb k)

theorem hz4 : (![0, 0, 0, 0] : Fin 4 → ℕ) = fun _ => 0 := by funext a; fin_cases a <;> rfl

/-- The accumulator after `k` chunks: zero, then each chunk's update of what it found. -/
def acc (q : Vec F S4x1x256x64 .bf16) (Kc Vc : Fin k0_t1_loop.trips → Vec F S4x1x512x64 .bf16) : ℕ → Vec F S4x256x64 .f32
  | 0 => k0_pay1
  | k + 1 => if h : k < k0_t1_loop.trips then k0_pay2 q (Kc ⟨k, h⟩) (Vc ⟨k, h⟩) (acc q Kc Vc k) else acc q Kc Vc k

theorem acc_succ (q : Vec F S4x1x256x64 .bf16) (Kc Vc : Fin k0_t1_loop.trips → Vec F S4x1x512x64 .bf16) (k : Fin k0_t1_loop.trips) :
    acc q Kc Vc (k.val + 1) = k0_pay2 q (Kc k) (Vc k) (acc q Kc Vc k.val) := by
  rw [acc, dif_pos k.isLt]

/-- A whole-buffer load after a whole-buffer store reads the stored vector, whatever was stored before. -/
theorem readAt_whole_cons (v : View sig .tc .vmem S4x256x64 .f32) (w : Vec F S4x256x64 .f32)
    (L : List (View.Piece (Elt F) S4x256x64 .f32)) :
    View.readAt (Elt F) v R6.toLoadRect (v.writes (Elt F) v.junk (⟨R6, w⟩ :: L)) = w :=
  View.readCov_cons_toLoadRect v R6 w L

section Trip
variable (c : Dev nD) (i : grid0.Coords) (arg2 : Memref sig .tc .vmem S4x1x256x64 .bf16) (harg2 : arg2.IsWhole) (arg3 : Memref sig .tc .vmem S4x1x2048x64 .bf16) (harg3 : arg3.IsWhole) (arg4 : Memref sig .tc .vmem S4x1x2048x64 .bf16) (harg4 : arg4.IsWhole) (arg5 : Memref sig .tc .vmem S4x1x256x64 .f32) (harg5 : arg5.IsWhole) (arg6 : Memref sig .tc .vmem S4x256x64 .f32) (harg6 : arg6.IsWhole) (v0 : Vec F S4x1x256x64 .bf16) (X3 : BufTy.Contents (Elt F) arg3.view.ty) (X4 : BufTy.Contents (Elt F) arg4.view.ty)

/-- One chunk's store: the update of the accumulator it finds, by the chunk's key and value rows. -/
theorem tripL_eq (k : Fin k0_t1_loop.trips) (f : BufTy.Contents (Elt F) arg6.view.ty) :
    tripL_k0_t1 (F := F) Variants.none c none i arg2 harg2 arg3 harg3 arg4 harg4 arg5 harg5 arg6 harg6 v0 X3 X4 k f
      = [⟨R6, k0_pay2 v0 (View.readAt (Elt F) arg3.view (RK k).toLoadRect X3) (View.readAt (Elt F) arg4.view (RK k).toLoadRect X4)
          (View.readAt (Elt F) arg6.view R6.toLoadRect f)⟩] := by
  unfold tripL_k0_t1 trip_k0_t1
  rfl

/-- What the accumulator reads after `k` chunks is the chain's `k`-th link. -/
theorem scratch_eq (k : ℕ) :
    View.readAt (Elt F) arg6.view R6.toLoadRect
      (arg6.view.writes (Elt F) arg6.view.junk
        (pb_k0_t1 (F := F) Variants.none c none i arg2 harg2 arg3 harg3 arg4 harg4 arg5 harg5 arg6 harg6 v0 X3 X4
            (arg6.view.writes (Elt F) arg6.view.junk [⟨R6, k0_pay1⟩]) k ++ [⟨R6, k0_pay1⟩]))
      = acc v0 (fun k => View.readAt (Elt F) arg3.view (RK k).toLoadRect X3)
          (fun k => View.readAt (Elt F) arg4.view (RK k).toLoadRect X4) k := by
  induction k with
  | zero =>
    rw [pb_k0_t1, List.nil_append]
    exact readAt_whole_cons _ _ _
  | succ k ih =>
    by_cases h : k < k0_t1_loop.trips
    · rw [show pb_k0_t1 (F := F) Variants.none c none i arg2 harg2 arg3 harg3 arg4 harg4 arg5 harg5 arg6 harg6 v0 X3 X4
            (arg6.view.writes (Elt F) arg6.view.junk [⟨R6, k0_pay1⟩]) (k + 1) = _ from
          pb_k0_t1_succ (F := F) Variants.none c none i arg2 harg2 arg3 harg3 arg4 harg4 arg5 harg5 arg6 harg6 v0 X3 X4
            (arg6.view.writes (Elt F) arg6.view.junk [⟨R6, k0_pay1⟩]) ⟨k, h⟩]
      rw [tripL_eq, List.singleton_append, List.cons_append, readAt_whole_cons, ← View.writes_append, ih]
      exact (acc_succ _ _ _ ⟨k, h⟩).symm
    · rw [pb_k0_t1.eq_2]
      unfold pb_k0_t1Step
      rw [dif_neg h, ih, acc, dif_neg h]

end Trip

/-- THE BODY'S OUTPUT BLOCK: the accumulator after all chunks, a unit axis inserted. -/
theorem out_eq (c : Dev nD) (i : grid0.Coords) (arg2 : Memref sig .tc .vmem S4x1x256x64 .bf16) (harg2 : arg2.IsWhole) (arg3 : Memref sig .tc .vmem S4x1x2048x64 .bf16) (harg3 : arg3.IsWhole) (arg4 : Memref sig .tc .vmem S4x1x2048x64 .bf16) (harg4 : arg4.IsWhole) (arg5 : Memref sig .tc .vmem S4x1x256x64 .f32) (harg5 : arg5.IsWhole) (arg6 : Memref sig .tc .vmem S4x256x64 .f32) (harg6 : arg6.IsWhole)
    (x0 : Vec F S4x1x256x64 .bf16) (x1 : Vec F S4x1x2048x64 .bf16) (x2 : Vec F S4x1x2048x64 .bf16) :
    out0_A_3 c i arg2 harg2 arg3 harg3 arg4 harg4 arg5 harg5 arg6 harg6 x0 x1 x2
      = k0_pay3 (acc x0 (fun k => View.ld x1 (RK k)) (fun k => View.ld x2 (RK k)) k0_t1_loop.trips) := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero (S := S4x1x256x64) hz4]
  refine congrArg k0_pay3 ?_
  refine (scratch_eq c i arg2 harg2 arg3 harg3 arg4 harg4 arg5 harg5 arg6 harg6 _ _ _ _).trans ?_
  simp only [View.readAt_eq_ld, harg2.read_unread, harg3.read_unread, harg4.read_unread, View.ld_unit_zero (S := S4x1x256x64) hz4]

/-- The loop runs four times. -/
theorem trips_eq : k0_t1_loop.trips = 4 := by decide +kernel

end Cert.KernelIdeal.Body

end
-- ==== Proof.LibERealSum.lean ====
/-
  General laws of finite sums of extended reals, with no finiteness asked of the terms.
  Multiplication on the extended reals does not distribute over addition in general (∞ - ∞), but a factor
  that is nonnegative and not +∞ does, on either side; so such a factor moves across any finite sum. This
  is what lets a scale folded into one operand of a contraction (x · c inside the sum) meet the same scale
  applied to the contraction's result (the sum times c, or the sum divided by 1/c) without a precondition
  on the inputs. Also: a sum over `Fin (m * n)` as a double sum over `m` blocks of `n`.
-/
import Mathlib.Data.EReal.Operations
import Mathlib.Algebra.BigOperators.Fin
import Mathlib.Logic.Equiv.Fin.Basic

namespace Cert.Lib.ERealSum

open scoped BigOperators

/-- A nonnegative finite factor on the right moves across a finite sum of extended reals. -/
theorem sum_mul_const {ι : Type*} (t : Finset ι) (f : ι → EReal) {c : EReal} (h0 : 0 ≤ c) (ht : c ≠ ⊤) :
    (∑ k ∈ t, f k) * c = ∑ k ∈ t, f k * c := by
  classical
  induction t using Finset.induction_on with
  | empty => simp
  | insert a t ha ih =>
    rw [Finset.sum_insert ha, Finset.sum_insert ha, EReal.right_distrib_of_nonneg_of_ne_top h0 ht, ih]

/-- The same with the factor on the left. -/
theorem mul_sum_const {ι : Type*} (t : Finset ι) (f : ι → EReal) {c : EReal} (h0 : 0 ≤ c) (ht : c ≠ ⊤) :
    c * (∑ k ∈ t, f k) = ∑ k ∈ t, c * f k :=
  (EReal.mul_comm _ _).trans
    ((sum_mul_const t f h0 ht).trans (Finset.sum_congr rfl fun k _ => EReal.mul_comm _ _))

/-- A sum over `Fin (m * n)` is the sum over the `m` blocks of the sums over their `n` entries: entry `i` of
    block `c` is position `i + n * c`. -/
theorem sum_fin_blocks {M : Type*} [AddCommMonoid M] (m n : ℕ) (f : Fin (m * n) → M) :
    ∑ j : Fin (m * n), f j = ∑ c : Fin m, ∑ i : Fin n, f (finProdFinEquiv (c, i)) := by
  rw [← Equiv.sum_comp (finProdFinEquiv (m := m) (n := n)) f, Fintype.sum_prod_type]

end Cert.Lib.ERealSum
-- ==== Proof.Softmax.lean ====
/-
  Extended-real facts behind the attention bridge. The two programs differ in three places only:
  the logit scale (a product with 1/4 inside the contraction against a quotient by 4 outside it), the
  reference's extra `max` with -∞ on top of a fold that already starts at -∞ and its sum started at 0,
  and the key axis summed in four chunks of 512 against one sum over 2048. Each is a law of `EReal`
  that needs no finiteness: a nonnegative finite factor distributes over a finite sum, and sums
  re-associate.
-/
import Idealize.ShloMosaic.PureOps.Ideal
import Idealize.ShloMosaic.PureOps.Ideal.Laws
import proofs.«169081_j10711648436709_2_alg».proof.Proof.LibERealSum

noncomputable section

namespace Cert.Attn

open Idealize.ShloMosaic
open scoped BigOperators

/-! ## The literals -/

/-- The f32 pattern of -∞ is the bottom of the extended reals. -/
theorem ofBits_neg_inf : Ideal.ofBits .f32 0xFF800000#32 = ⊥ := by
  simp [Ideal.ofBits, Ideal.ieee]

/-- The kernel's logit scale: the pattern of 0.25 is the real 1/4. -/
theorem ofBits_quarter : Ideal.ofBits .f32 0x3E800000#32 = ((1 / 4 : ℝ) : EReal) := by
  simp [Ideal.ofBits, Ideal.ieee, -EReal.coe_mul]; norm_num

/-- The reference's divisor: the pattern of 4.0 is the real 4. -/
theorem ofBits_four : Ideal.ofBits .f32 0x40800000#32 = ((4 : ℝ) : EReal) := by
  simp [Ideal.ofBits, Ideal.ieee, -EReal.coe_mul]; norm_num

/-! ## The softmax weight over the batch axis -/

/-- The maximum of the four batch logits, folded from -∞. -/
def mx (s : Fin 4 → EReal) : EReal :=
  (Finset.univ : Finset (Fin 4)).fold max (Ideal.ofBits .f32 0xFF800000#32) s

/-- The weight of batch entry `b`: `exp (s b - max s) / ∑ b', exp (s b' - max s)`. -/
def wgt (s : Fin 4 → EReal) (b : Fin 4) : EReal :=
  Ideal.div (Ideal.exp (s b - mx s)) (∑ b' : Fin 4, Ideal.exp (s b' - mx s))

/-- A further `max` with -∞ changes nothing. -/
theorem max_neg_inf (x : EReal) : max (Ideal.ofBits .f32 0xFF800000#32) x = x := by
  rw [ofBits_neg_inf]; exact max_eq_right bot_le

/-! ## The scale moves across the contraction -/

/-- The logit either way: scaling each query entry by 1/4 before the contraction is dividing the
    contraction by 4. -/
theorem logit_scale {n : ℕ} (q k : Fin n → EReal) :
    ∑ d : Fin n, (q d * Ideal.ofBits .f32 0x3E800000#32) * k d
      = Ideal.div (∑ d : Fin n, q d * k d) (Ideal.ofBits .f32 0x40800000#32) := by
  rw [ofBits_four, Ideal.div_coe (by norm_num : (4 : ℝ) ≠ 0), ofBits_quarter,
    Cert.Lib.ERealSum.sum_mul_const _ _ (by exact_mod_cast (by norm_num : (0 : ℝ) ≤ 1 / 4)) (EReal.coe_ne_top _)]
  exact Finset.sum_congr rfl fun d _ => mul_right_comm _ _ _

/-! ## The key axis in four chunks -/

/-- Position `j` of chunk `c` on the key axis. -/
def keyPos (c : Fin 4) (j : Fin 512) : Fin 2048 := ⟨512 * c.val + j.val, by have := c.isLt; have := j.isLt; omega⟩

/-- A sum over the 2048 keys is the sum over the four chunks of the sums over their 512 keys. -/
theorem sum_chunks (f : Fin 2048 → EReal) :
    ∑ j : Fin 2048, f j = ∑ c : Fin 4, ∑ j : Fin 512, f (keyPos c j) := by
  rw [Cert.Lib.ERealSum.sum_fin_blocks 4 512 f]
  refine Finset.sum_congr rfl fun c _ => Finset.sum_congr rfl fun j _ => congrArg f (Fin.ext ?_)
  simp [keyPos, finProdFinEquiv]; omega

/-- The accumulator's four additions onto 0, in trip order, are that sum over the chunks. -/
theorem acc_chunks (p : Fin 4 → EReal) :
    (((Ideal.ofBits .f32 0x00000000#32 + p 0) + p 1) + p 2) + p 3 = ∑ c : Fin 4, p c := by
  rw [Ideal.ofBits_zero_f32, zero_add, Fin.sum_univ_four]

end Cert.Attn

end
-- ==== Proof.KernelPayload.lean ====
/-
  The kernel body's three payloads read at an index, at the extended reals.
  One chunk's update adds to the accumulator, at (b, r, v), the sum over the chunk's 512 keys j of the
  softmax weight of batch entry b among the four scores of (r, j), times the chunk's value (b, j, v);
  a score is the 64-deep contraction of the (already scaled) query row with the chunk's key row.
  The layout operations in between only insert or drop a unit axis, or repeat the per-(r, j) maximum
  and sum along the batch axis.
-/
import proofs.«169081_j10711648436709_2_alg».proof.Proof.Gen.KernelIdeal.Skeleton
import proofs.«169081_j10711648436709_2_alg».proof.Proof.Softmax
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx Cert.Attn
open scoped BigOperators

/-! ## Unit axes dropped and inserted -/

/-- The query block [4,1,256,64] viewed [4,256,64]. -/
theorem dropQ {α : Type} (x : S4x1x256x64.Idx → α) (h : S4x1x256x64.ShapeCasts S4x256x64) (b : Fin 4) (r : Fin 256) (d : Fin 64) :
    shapeCast S4x256x64 x h (ix3 b r d) = x (ix4 b (0 : Fin 1) r d) :=
  shapeCast_apply x h (ix3 b r d) (ix4 b (0 : Fin 1) r d) (by
    rw [Shape.rowMajor_val_four, Shape.rowMajor_val_three]
    show ((b.val * 1 + 0) * 256 + r.val) * 64 + d.val = (b.val * 256 + r.val) * 64 + d.val
    omega)

/-- A key or value chunk [4,1,512,64] viewed [4,512,64]. -/
theorem dropK {α : Type} (x : S4x1x512x64.Idx → α) (h : S4x1x512x64.ShapeCasts S4x512x64) (b : Fin 4) (j : Fin 512) (d : Fin 64) :
    shapeCast S4x512x64 x h (ix3 b j d) = x (ix4 b (0 : Fin 1) j d) :=
  shapeCast_apply x h (ix3 b j d) (ix4 b (0 : Fin 1) j d) (by
    rw [Shape.rowMajor_val_four, Shape.rowMajor_val_three]
    show ((b.val * 1 + 0) * 512 + j.val) * 64 + d.val = (b.val * 512 + j.val) * 64 + d.val
    omega)

/-- The accumulator [4,256,64] stored as the output block [4,1,256,64]. -/
theorem addUnitO {α : Type} (x : S4x256x64.Idx → α) (h : S4x256x64.ShapeCasts S4x1x256x64) (y : S4x1x256x64.Idx) :
    shapeCast S4x1x256x64 x h y = x (ix3 (y 0) (y 2) (y 3)) :=
  shapeCast_apply x h y (ix3 (y 0) (y 2) (y 3)) (by
    rw [Shape.rowMajor_val_three, Shape.rowMajor_val_four]
    have h1 : (y 1).val < 1 := (y 1).isLt
    show ((y 0).val * 256 + (y 2).val) * 64 + (y 3).val = ((((y 0).val * 1 + (y 1).val) * 256 + (y 2).val) * 64 + (y 3).val)
    omega)

/-- A per-(r, j) value [256,512] repeated along the batch axis: [256,512] → [1,256,512] → [4,256,512]. -/
theorem keepBatch {α : Type} (x : S256x512.Idx → α) (h1 : S256x512.ShapeCasts S1x256x512) (h2 : S1x256x512.Broadcasts S4x256x512)
    (b : Fin 4) (r : Fin 256) (j : Fin 512) :
    broadcastTo S4x256x512 (shapeCast S1x256x512 x h1) h2 (ix3 b r j) = x (ix2 r j) := by
  refine (broadcastTo_apply _ h2 (ix3 b r j) (ix3 (0 : Fin 1) r j) (fun a => ?_)).trans ?_
  · match a with
    | ⟨0, _⟩ => rfl
    | ⟨1, _⟩ => rfl
    | ⟨2, _⟩ => rfl
  · exact shapeCast_apply x h1 (ix3 (0 : Fin 1) r j) (ix2 r j) (by
      rw [Shape.rowMajor_val_two, Shape.rowMajor_val_three]
      show r.val * 512 + j.val = ((0 * 256 + r.val) * 512 + j.val)
      omega)

/-! ## The reductions over the batch axis -/

/-- The maximum over the batch axis, from -∞. -/
theorem maxBatch (src : FVec Ideal S4x256x512 .f32) (h : S4x256x512.Reduces [0] S256x512) (hφ : FKind.Formats .f32)
    (hacc : (0xFF800000#32 : BitVec 32) = FKind.maximumf.neutral .f32 hφ) (r : Fin 256) (j : Fin 512) :
    multiReduction .maximumf [0] S256x512 src 0xFF800000#32 h hφ hacc (ix2 r j) = mx (fun b => src (ix3 b r j)) := by
  refine (Ideal.multiReduction_maximumf_single src 0xFF800000#32 h hφ hacc (ix2 r j)).trans ?_
  unfold mx
  refine Finset.fold_congr fun b _ => ?_
  exact congrArg src (funext fun a => Fin.ext (by
    match a with | ⟨0, _⟩ => rfl | ⟨1, _⟩ => rfl | ⟨2, _⟩ => rfl))

/-- The sum over the batch axis. -/
theorem sumBatch (src : FVec Ideal S4x256x512 .f32) (h : S4x256x512.Reduces [0] S256x512) (hφ : FKind.Formats .f32)
    (hacc : (0x00000000#32 : BitVec 32) = FKind.add.neutral .f32 hφ) (r : Fin 256) (j : Fin 512) :
    multiReduction .add [0] S256x512 src 0x00000000#32 h hφ hacc (ix2 r j) = ∑ b : Fin 4, src (ix3 b r j) := by
  refine (Ideal.multiReduction_add_single src 0x00000000#32 h hφ hacc (ix2 r j)).trans ?_
  refine Finset.sum_congr rfl fun b _ => ?_
  exact congrArg src (funext fun a => Fin.ext (by
    match a with | ⟨0, _⟩ => rfl | ⟨1, _⟩ => rfl | ⟨2, _⟩ => rfl))

/-! ## The two batched products -/

/-- The scores' dimension numbers: batch axis 0, query rows against key rows, the 64 features contracted. -/
abbrev D1 := dot_S4x256x64_S4x512x64_S4x256x512_2_2_1_1_0_0
/-- The weighted values' dimension numbers: batch axis 0, the chunk's 512 keys contracted. -/
abbrev D2 := dot_S4x256x512_S4x512x64_S4x256x64_2_1_1_2_0_0

theorem d1_lhs0 (i : S4x256x512.Idx) (q : D1.contr.Idx) : (D1.lhsIdx i q 0).val = (i 0).val := by
  unfold DotDims.lhsIdx
  rw [dif_pos (show (0 : Fin S4x256x64.rank) ∈ D1.lhsBatch by decide)]
  rfl
theorem d1_lhs1 (i : S4x256x512.Idx) (q : D1.contr.Idx) : (D1.lhsIdx i q 1).val = (i 1).val := by
  unfold DotDims.lhsIdx
  rw [dif_neg (show ¬(1 : Fin S4x256x64.rank) ∈ D1.lhsBatch by decide), dif_pos (show (1 : Fin S4x256x64.rank) ∈ D1.lhsNonContracting by decide)]
  rfl
theorem d1_lhs2 (i : S4x256x512.Idx) (q : D1.contr.Idx) : (D1.lhsIdx i q 2).val = (q ⟨0, by decide⟩).val :=
  D1.lhsIdx_val_of_single rfl i q
theorem d1_rhs0 (i : S4x256x512.Idx) (q : D1.contr.Idx) : (D1.rhsIdx i q 0).val = (i 0).val := by
  unfold DotDims.rhsIdx
  rw [dif_pos (show (0 : Fin S4x512x64.rank) ∈ D1.rhsBatch by decide)]
  rfl
theorem d1_rhs1 (i : S4x256x512.Idx) (q : D1.contr.Idx) : (D1.rhsIdx i q 1).val = (i 2).val := by
  unfold DotDims.rhsIdx
  rw [dif_neg (show ¬(1 : Fin S4x512x64.rank) ∈ D1.rhsBatch by decide), dif_pos (show (1 : Fin S4x512x64.rank) ∈ D1.rhsNonContracting by decide)]
  rfl
theorem d1_rhs2 (i : S4x256x512.Idx) (q : D1.contr.Idx) : (D1.rhsIdx i q 2).val = (q ⟨0, by decide⟩).val :=
  D1.rhsIdx_val_of_single rfl i q

theorem d2_lhs0 (i : S4x256x64.Idx) (q : D2.contr.Idx) : (D2.lhsIdx i q 0).val = (i 0).val := by
  unfold DotDims.lhsIdx
  rw [dif_pos (show (0 : Fin S4x256x512.rank) ∈ D2.lhsBatch by decide)]
  rfl
theorem d2_lhs1 (i : S4x256x64.Idx) (q : D2.contr.Idx) : (D2.lhsIdx i q 1).val = (i 1).val := by
  unfold DotDims.lhsIdx
  rw [dif_neg (show ¬(1 : Fin S4x256x512.rank) ∈ D2.lhsBatch by decide), dif_pos (show (1 : Fin S4x256x512.rank) ∈ D2.lhsNonContracting by decide)]
  rfl
theorem d2_lhs2 (i : S4x256x64.Idx) (q : D2.contr.Idx) : (D2.lhsIdx i q 2).val = (q ⟨0, by decide⟩).val :=
  D2.lhsIdx_val_of_single rfl i q
theorem d2_rhs0 (i : S4x256x64.Idx) (q : D2.contr.Idx) : (D2.rhsIdx i q 0).val = (i 0).val := by
  unfold DotDims.rhsIdx
  rw [dif_pos (show (0 : Fin S4x512x64.rank) ∈ D2.rhsBatch by decide)]
  rfl
theorem d2_rhs1 (i : S4x256x64.Idx) (q : D2.contr.Idx) : (D2.rhsIdx i q 1).val = (q ⟨0, by decide⟩).val :=
  D2.rhsIdx_val_of_single rfl i q
theorem d2_rhs2 (i : S4x256x64.Idx) (q : D2.contr.Idx) : (D2.rhsIdx i q 2).val = (i 2).val := by
  unfold DotDims.rhsIdx
  rw [dif_neg (show ¬(2 : Fin S4x512x64.rank) ∈ D2.rhsBatch by decide), dif_pos (show (2 : Fin S4x512x64.rank) ∈ D2.rhsNonContracting by decide)]
  rfl

/-- Scores: at (b, r, j) the contraction over the 64 features of query row (b, r) with key row (b, j). -/
theorem scores_apply (q : FVec Ideal S4x256x64 .bf16) (k : FVec Ideal S4x512x64 .bf16) (b : Fin 4) (r : Fin 256) (j : Fin 512) :
    matmul D1 none q k (constant S4x256x512 .f32 0x00000000#32) (ix3 b r j)
      = ∑ d : Fin 64, q (ix3 b r d) * k (ix3 b j d) := by
  refine (Ideal.matmul_constant_zero_apply D1 none q k (ix3 b r j)).trans ?_
  rw [← Equiv.sum_comp (contrEquiv1 D1 64 rfl rfl).symm]
  refine Finset.sum_congr rfl fun d _ => ?_
  have hk := contrEquiv1_symm_val D1 64 rfl rfl d
  have el : D1.lhsIdx (ix3 b r j) ((contrEquiv1 D1 64 rfl rfl).symm d) = ix3 b r d :=
    funext fun a => Fin.ext (by
      match a with
      | ⟨0, _⟩ => exact d1_lhs0 _ _
      | ⟨1, _⟩ => exact d1_lhs1 _ _
      | ⟨2, _⟩ => exact (d1_lhs2 _ _).trans hk)
  have er : D1.rhsIdx (ix3 b r j) ((contrEquiv1 D1 64 rfl rfl).symm d) = ix3 b j d :=
    funext fun a => Fin.ext (by
      match a with
      | ⟨0, _⟩ => exact d1_rhs0 _ _
      | ⟨1, _⟩ => exact d1_rhs1 _ _
      | ⟨2, _⟩ => exact (d1_rhs2 _ _).trans hk)
  rw [el, er]

/-- Weighted values: at (b, r, v) the contraction over the chunk's 512 keys of weight (b, r, j) with value (b, j, v). -/
theorem wv_apply (w : FVec Ideal S4x256x512 .bf16) (x : FVec Ideal S4x512x64 .bf16) (b : Fin 4) (r : Fin 256) (v : Fin 64) :
    matmul D2 none w x (constant S4x256x64 .f32 0x00000000#32) (ix3 b r v)
      = ∑ j : Fin 512, w (ix3 b r j) * x (ix3 b j v) := by
  refine (Ideal.matmul_constant_zero_apply D2 none w x (ix3 b r v)).trans ?_
  rw [← Equiv.sum_comp (contrEquiv1 D2 512 rfl rfl).symm]
  refine Finset.sum_congr rfl fun j _ => ?_
  have hk := contrEquiv1_symm_val D2 512 rfl rfl j
  have el : D2.lhsIdx (ix3 b r v) ((contrEquiv1 D2 512 rfl rfl).symm j) = ix3 b r j :=
    funext fun a => Fin.ext (by
      match a with
      | ⟨0, _⟩ => exact d2_lhs0 _ _
      | ⟨1, _⟩ => exact d2_lhs1 _ _
      | ⟨2, _⟩ => exact (d2_lhs2 _ _).trans hk)
  have er : D2.rhsIdx (ix3 b r v) ((contrEquiv1 D2 512 rfl rfl).symm j) = ix3 b j v :=
    funext fun a => Fin.ext (by
      match a with
      | ⟨0, _⟩ => exact d2_rhs0 _ _
      | ⟨1, _⟩ => exact (d2_rhs1 _ _).trans hk
      | ⟨2, _⟩ => exact d2_rhs2 _ _)
  rw [el, er]

/-! ## The softmax over the batch axis -/

/-- The weights the body forms from a score array: at (b, r, j) the softmax weight of entry b among the four
    scores of (r, j). -/
theorem weights_apply (S : FVec Ideal S4x256x512 .f32) (h : S4x256x512.Reduces [0] S256x512) (hφ : FKind.Formats .f32)
    (hmax : (0xFF800000#32 : BitVec 32) = FKind.maximumf.neutral .f32 hφ) (hadd : (0x00000000#32 : BitVec 32) = FKind.add.neutral .f32 hφ)
    (h1 : S256x512.ShapeCasts S1x256x512) (h2 : S1x256x512.Broadcasts S4x256x512) (hlt : FTy.bits .bf16 < FTy.bits .f32)
    (b : Fin 4) (r : Fin 256) (j : Fin 512) :
    (truncf .bf16
        (divf
          (exp (subf S (broadcastTo S4x256x512 (shapeCast S1x256x512 (multiReduction .maximumf [0] S256x512 S 0xFF800000#32 h hφ hmax) h1) h2)))
          (broadcastTo S4x256x512 (shapeCast S1x256x512
            (multiReduction .add [0] S256x512
              (exp (subf S (broadcastTo S4x256x512 (shapeCast S1x256x512 (multiReduction .maximumf [0] S256x512 S 0xFF800000#32 h hφ hmax) h1) h2)))
              0x00000000#32 h hφ hadd) h1) h2))
        hlt : FVec Ideal S4x256x512 .bf16) (ix3 b r j)
      = wgt (fun b' => S (ix3 b' r j)) b := by
  have hM : ∀ b' : Fin 4, broadcastTo S4x256x512 (shapeCast S1x256x512 (multiReduction .maximumf [0] S256x512 S 0xFF800000#32 h hφ hmax) h1) h2 (ix3 b' r j)
      = mx (fun b'' => S (ix3 b'' r j)) := fun b' =>
    (keepBatch _ h1 h2 b' r j).trans (maxBatch S h hφ hmax r j)
  have hE : ∀ b' : Fin 4,
      exp (subf S (broadcastTo S4x256x512 (shapeCast S1x256x512 (multiReduction .maximumf [0] S256x512 S 0xFF800000#32 h hφ hmax) h1) h2)) (ix3 b' r j)
        = Ideal.exp (S (ix3 b' r j) - mx (fun b'' => S (ix3 b'' r j))) := fun b' => by
    show Ideal.exp (S (ix3 b' r j) - _) = _
    rw [hM b']
  show Ideal.div _ _ = _
  rw [hE b, keepBatch _ h1 h2 b r j, sumBatch _ h hφ hadd r j]
  unfold wgt
  refine congrArg (Ideal.div _) (Finset.sum_congr rfl fun b' _ => hE b')

/-! ## The payloads -/

/-- The zeroed accumulator. -/
theorem pay1_apply (y : S4x256x64.Idx) : k0_pay1 (F := Ideal) y = Ideal.ofBits .f32 0x00000000#32 := by
  unfold k0_pay1
  refine (congrFun (shapeCast_self _ _) y).trans ?_
  rfl

/-- One chunk's update of the accumulator. -/
theorem pay2_apply (q : Vec Ideal S4x1x256x64 .bf16) (kc vc : Vec Ideal S4x1x512x64 .bf16) (prev : Vec Ideal S4x256x64 .f32)
    (b : Fin 4) (r : Fin 256) (v : Fin 64) :
    k0_pay2 q kc vc prev (ix3 b r v)
      = prev (ix3 b r v)
        + ∑ j : Fin 512, wgt (fun b' => ∑ d : Fin 64, q (ix4 b' (0 : Fin 1) r d) * kc (ix4 b' (0 : Fin 1) j d)) b * vc (ix4 b (0 : Fin 1) j v) := by
  unfold k0_pay2
  refine (congrFun (shapeCast_self _ _) (ix3 b r v)).trans ?_
  show prev (ix3 b r v) + _ = _
  refine congrArg (prev (ix3 b r v) + ·) ?_
  refine (wv_apply _ _ b r v).trans ?_
  refine Finset.sum_congr rfl fun j _ => ?_
  refine congrArg₂ (· * ·) ?_ (dropK vc _ b j v)
  refine (weights_apply _ _ _ _ _ _ _ _ b r j).trans ?_
  refine congrArg (fun s => wgt s b) (funext fun b' => ?_)
  refine (scores_apply _ _ b' r j).trans ?_
  exact Finset.sum_congr rfl fun d _ => congrArg₂ (· * ·) (dropQ q _ b' r d) (dropK kc _ b' j d)

/-- The accumulator copied into the output block. -/
theorem pay3_apply (a : Vec Ideal S4x256x64 .f32) (y : S4x1x256x64.Idx) :
    k0_pay3 a y = a (ix3 (y 0) (y 2) (y 3)) := by
  unfold k0_pay3
  exact addUnitO a _ y

end Cert.KernelIdeal.Payload

end
-- ==== Proof.KernelBlock.lean ====
/-
  One grid point's output block as a function of its three input blocks, at the extended reals.
  The four chunk updates add, in order, onto a zero accumulator; chunk `c` reads rows
  `512 c … 512 c + 511` of the head's key and value blocks. Re-associated, the block at (b, ·, r, v) is
  the sum over all 2048 keys of the batch-softmax weight times the value.
-/
import proofs.«169081_j10711648436709_2_alg».proof.Proof.KernelBody
import proofs.«169081_j10711648436709_2_alg».proof.Proof.KernelPayload

set_option maxRecDepth 16384

noncomputable section

namespace Cert.KernelIdeal.Block

open Cert.KernelIdeal Cert.KernelIdeal.Gen Cert.KernelIdeal.Body Cert.KernelIdeal.Payload
open Idealize.ShloMosaic Idealize.ShloMosaic.ValueIdx Cert.Attn
open scoped BigOperators

/-- Chunk `c` of the four as a trip of the loop. -/
def tk (c : Fin 4) : Fin k0_t1_loop.trips := ⟨c.val, by rw [trips_eq]; exact c.isLt⟩

/-- The accumulator after the loop: the four updates in trip order over the zero store. -/
theorem acc_all {F : FTy → Type} [FloatOps F] (q : Vec F S4x1x256x64 .bf16) (Kc Vc : Fin k0_t1_loop.trips → Vec F S4x1x512x64 .bf16) :
    acc q Kc Vc k0_t1_loop.trips
      = k0_pay2 q (Kc (tk 3)) (Vc (tk 3)) (k0_pay2 q (Kc (tk 2)) (Vc (tk 2))
          (k0_pay2 q (Kc (tk 1)) (Vc (tk 1)) (k0_pay2 q (Kc (tk 0)) (Vc (tk 0)) k0_pay1))) := by
  have h : acc q Kc Vc k0_t1_loop.trips = acc q Kc Vc ((tk 3).val + 1) := congrArg (acc q Kc Vc) trips_eq
  rw [h, acc_succ]
  rw [show acc q Kc Vc (tk 3).val = acc q Kc Vc ((tk 2).val + 1) from rfl, acc_succ]
  rw [show acc q Kc Vc (tk 2).val = acc q Kc Vc ((tk 1).val + 1) from rfl, acc_succ]
  rw [show acc q Kc Vc (tk 1).val = acc q Kc Vc ((tk 0).val + 1) from rfl, acc_succ]
  rfl

/-- A chunk's load reads the head's block at the chunk's rows. -/
theorem ld_chunk (X : Vec Ideal S4x1x2048x64 .bf16) (c : Fin 4) (b : Fin 4) (j : Fin 512) (d : Fin 64) :
    View.ld X (RK (tk c)) (ix4 b (0 : Fin 1) j d) = X (ix4 b (0 : Fin 1) (keyPos c j) d) := by
  have ho := k0_off1_eq (tk c)
  refine congrArg X (funext fun a => Fin.ext ?_)
  match a with
  | ⟨0, _⟩ =>
    show k0_off1 (tk c) (0 : Fin 4) + 1 * b.val = b.val
    rw [ho]; show 0 + 1 * b.val = b.val; omega
  | ⟨1, _⟩ =>
    show k0_off1 (tk c) (1 : Fin 4) + 1 * 0 = 0
    rw [ho]; rfl
  | ⟨2, _⟩ =>
    show k0_off1 (tk c) (2 : Fin 4) + 1 * j.val = 512 * c.val + j.val
    rw [ho]; show 512 * c.val + 1 * j.val = 512 * c.val + j.val; omega
  | ⟨3, _⟩ =>
    show k0_off1 (tk c) (3 : Fin 4) + 1 * d.val = d.val
    rw [ho]; show 0 + 1 * d.val = d.val; omega

/-- THE BLOCK: at (b, ·, r, v) the sum over the head's 2048 keys of the weight of batch entry b among the four
    scores of (r, key) times the value (b, key, v). -/
theorem block_value (q : Vec Ideal S4x1x256x64 .bf16) (Kb Vb : Vec Ideal S4x1x2048x64 .bf16)
    (b : Fin 4) (z : Fin 1) (r : Fin 256) (v : Fin 64) :
    k0_pay3 (acc q (fun k => View.ld Kb (RK k)) (fun k => View.ld Vb (RK k)) k0_t1_loop.trips) (ix4 b z r v)
      = ∑ jj : Fin 2048, wgt (fun b' => ∑ d : Fin 64, q (ix4 b' (0 : Fin 1) r d) * Kb (ix4 b' (0 : Fin 1) jj d)) b
          * Vb (ix4 b (0 : Fin 1) jj v) := by
  rw [pay3_apply, acc_all]
  show k0_pay2 q _ _ _ (ix3 b r v) = _
  rw [pay2_apply, pay2_apply, pay2_apply, pay2_apply, pay1_apply, sum_chunks]
  refine (acc_chunks (fun c => ∑ j : Fin 512,
    wgt (fun b' => ∑ d : Fin 64, q (ix4 b' (0 : Fin 1) r d) * View.ld Kb (RK (tk c)) (ix4 b' (0 : Fin 1) j d)) b
      * View.ld Vb (RK (tk c)) (ix4 b (0 : Fin 1) j v))).trans ?_
  refine Finset.sum_congr rfl fun c _ => Finset.sum_congr rfl fun j _ => ?_
  exact congrArg₂ (· * ·)
    (congrArg (fun s => wgt s b) (funext fun b' => Finset.sum_congr rfl fun d _ =>
      congrArg (q (ix4 b' (0 : Fin 1) r d) * ·) (ld_chunk Kb c b' j d)))
    (ld_chunk Vb c b j v)

end Cert.KernelIdeal.Block

end
-- ==== Proof.Spec.lean ====
/-
  The function both programs compute, index by index, over the argument arrays as extended reals.
  At output index (b, h, i, v): the sum over the 2048 keys j of the weight of batch entry b among the
  four logits of (h, i, j) — the softmax runs over the batch axis — times value (b, h, j, v). The
  logit of (b, h, i, j) is the 64-deep contraction of query row (b, h, i) with key row (b, h, j),
  divided by 4.
-/
import Idealize.ShloMosaic.Lib.ValueIdx
import proofs.«169081_j10711648436709_2_alg».proof.Proof.Softmax

noncomputable section

namespace Cert.Attn

open Idealize.ShloMosaic Idealize.ShloMosaic.ValueIdx
open scoped BigOperators

/-- An argument or result array: [4, 16, 2048, 64] extended reals. -/
abbrev Arr : Type := (⟨4, ![4, 16, 2048, 64]⟩ : Shape).Idx → EReal

/-- The logit of batch entry `b` at head `h`, query `i`, key `j`. -/
def logit (Q K : Arr) (h : Fin 16) (i j : Fin 2048) (b : Fin 4) : EReal :=
  Ideal.div (∑ d : Fin 64, Q (ix4 b h i d) * K (ix4 b h j d)) (Ideal.ofBits .f32 0x40800000#32)

/-- The attention output as one function of the three argument arrays. -/
def attn (Q K V : Arr) : Arr := fun x =>
  ∑ j : Fin 2048, wgt (logit Q K (x 1) (x 2) j) (x 0) * V (ix4 (x 0) (x 1) j (x 3))

end Cert.Attn

end
-- ==== Proof.KernelValue.lean ====
/-
  The kernel's result array after the run is `attn` of the three arguments.
  Grid point (h, i) stages query rows `256 i … 256 i + 255` of head h and all 2048 key and value rows of
  head h, of arrays the host prepared before the launch: the queries times 1/4, the keys and values
  unchanged. What the point writes back is therefore the block (·, h, 256 i + ·, ·) of one whole-array
  function of those three arrays; the 128 blocks tile the result; and carrying the 1/4 out of the
  contraction turns that function into `attn`.
-/
import proofs.«169081_j10711648436709_2_alg».proof.Proof.Gen.KernelIdeal.Value
import proofs.«169081_j10711648436709_2_alg».proof.Proof.KernelBlock
import proofs.«169081_j10711648436709_2_alg».proof.Proof.Spec
import Idealize.ShloMosaic.Lib.StableHlo.Run
import Idealize.ShloMosaic.PureOps.Ideal

set_option maxRecDepth 16384

noncomputable section

namespace Cert.KernelIdeal.AttnValue

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.Attn
open Idealize.ShloMosaic.Pipeline (Dat)
open scoped BigOperators

variable (m : (ℓ : Loc nD τ sig) → Buf (Elt Ideal) ℓ) (ρ : Dev nD → PrngReg)

/-! ## The staged arrays -/

/-- An array with every entry multiplied by 1/4. -/
def scaleQ (Q : S4x16x2048x64.Idx → EReal) : S4x16x2048x64.Idx → EReal := fun i => Q i * Ideal.ofBits .f32 0x3E800000#32

/-- The staged queries: the argument times 1/4 (the cast to bf16 is the identity here). -/
theorem V2_eq (c : Dev nD) :
    (V m c main_v2 : S4x16x2048x64.Idx → EReal) = scaleQ (m ((c : Thread nD τ).loc main_arg0)) := by
  dsimp only [V, hostOps0]
  after_results
  rfl

/-- The staged keys: the argument. -/
theorem V3_eq (c : Dev nD) :
    (V m c main_v3 : S4x16x2048x64.Idx → EReal) = m ((c : Thread nD τ).loc main_arg1) := by
  dsimp only [V, hostOps0]
  after_results
  rfl

/-- The staged values: the argument. -/
theorem V4_eq (c : Dev nD) :
    (V m c main_v4 : S4x16x2048x64.Idx → EReal) = m ((c : Thread nD τ).loc main_arg2) := by
  dsimp only [V, hostOps0]
  after_results
  rfl

/-! ## The function of the staged arrays -/

/-- Attention over arrays whose queries are already scaled: the logit is the plain contraction. -/
def attnK (Qs Kb Vb : S4x16x2048x64.Idx → EReal) : S4x16x2048x64.Idx → EReal := fun x =>
  ∑ jj : Fin 2048, wgt (fun b' => ∑ d : Fin 64, Qs (ix4 b' (x 1) (x 2) d) * Kb (ix4 b' (x 1) jj d)) (x 0)
    * Vb (ix4 (x 0) (x 1) jj (x 3))

/-- With the queries scaled by 1/4 it is `attn`: the factor leaves the contraction as a division by 4. -/
theorem attnK_eq (Q K W : S4x16x2048x64.Idx → EReal) :
    attnK (scaleQ Q) K W = attn Q K W := by
  funext x
  unfold attnK attn scaleQ
  refine Finset.sum_congr rfl fun jj _ => ?_
  refine congrArg (· * _) (congrArg (fun s => wgt s (x 0)) (funext fun b' => ?_))
  exact logit_scale (fun d => Q (ix4 b' (x 1) (x 2) d)) (fun d => K (ix4 b' (x 1) jj d))

/-- Equal staged arrays give equal results. -/
theorem attnK_congr {Q Q' K K' W W' : S4x16x2048x64.Idx → EReal} (hQ : Q = Q') (hK : K = K') (hW : W = W') :
    attnK Q K W = attnK Q' K' W' := by
  subst hQ hK hW; rfl

/-! ## The index maps over the grid -/

/-- The output block of point t sits at (0, h, i, 0); the query block moves with it; the key and value blocks
    follow the head only. -/
theorem idx_facts : ∀ t : Fin cfg0.N,
    win0_3.index t (0 : Fin 4) = 0 ∧ win0_3.index t (1 : Fin 4) ≤ 15 ∧ win0_3.index t (2 : Fin 4) ≤ 7 ∧ win0_3.index t (3 : Fin 4) = 0
    ∧ win0_0.index t (0 : Fin 4) = 0 ∧ win0_0.index t (1 : Fin 4) = win0_3.index t (1 : Fin 4)
    ∧ win0_0.index t (2 : Fin 4) = win0_3.index t (2 : Fin 4) ∧ win0_0.index t (3 : Fin 4) = 0
    ∧ win0_1.index t (0 : Fin 4) = 0 ∧ win0_1.index t (1 : Fin 4) = win0_3.index t (1 : Fin 4)
    ∧ win0_1.index t (2 : Fin 4) = 0 ∧ win0_1.index t (3 : Fin 4) = 0
    ∧ win0_2.index t (0 : Fin 4) = 0 ∧ win0_2.index t (1 : Fin 4) = win0_3.index t (1 : Fin 4)
    ∧ win0_2.index t (2 : Fin 4) = 0 ∧ win0_2.index t (3 : Fin 4) = 0 :=
  (by decide +kernel : ∀ t : Fin grid0.N, _)

/-- Every (head, query tile) is some point's. -/
theorem idx_onto : ∀ (h : Fin 16) (i : Fin 8), ∃ t : Fin cfg0.N, win0_3.index t = ![0, h.val, i.val, 0] :=
  (by decide +kernel : ∀ (h : Fin 16) (i : Fin 8), ∃ t : Fin grid0.N, win0_3.index t = ![0, h.val, i.val, 0])

/-- The head of point t. -/
def hd (t : Fin cfg0.N) : Fin 16 := ⟨win0_3.index t (1 : Fin 4), by have := (idx_facts t).2.1; omega⟩

/-- Row r of point t's query tile, as a row of the array. -/
def qrow (t : Fin cfg0.N) (r : Fin 256) : Fin 2048 :=
  ⟨win0_3.index t (2 : Fin 4) * 256 + r.val, by have := (idx_facts t).2.2.1; have := r.isLt; omega⟩

/-! ## The blocks read off the staged arrays -/

theorem q_read (c : Dev nD) (t : Fin cfg0.N) (b : Fin 4) (r : Fin 256) (d : Fin 64) :
    iblk m c 0 t (ix4 b (0 : Fin 1) r d) = V m c main_v2 (ix4 b (hd t) (qrow t r) d) := by
  obtain ⟨e30, e31, e32, e33, e00, e01, e02, e03, -⟩ := idx_facts t
  show V m c main_v2 (((cfg0.win 0).blk t).view.emb (ix4 b (0 : Fin 1) r d)) = _
  refine congrArg (V m c main_v2) (funext fun a => Fin.ext ?_)
  match a with
  | ⟨0, _⟩ => show win0_0.index t (0 : Fin 4) * 4 + 1 * b.val = b.val; omega
  | ⟨1, _⟩ => show win0_0.index t (1 : Fin 4) * 1 + 1 * 0 = win0_3.index t (1 : Fin 4); omega
  | ⟨2, _⟩ => show win0_0.index t (2 : Fin 4) * 256 + 1 * r.val = win0_3.index t (2 : Fin 4) * 256 + r.val; omega
  | ⟨3, _⟩ => show win0_0.index t (3 : Fin 4) * 64 + 1 * d.val = d.val; omega

theorem k_read (c : Dev nD) (t : Fin cfg0.N) (b : Fin 4) (jj : Fin 2048) (d : Fin 64) :
    iblk m c 1 t (ix4 b (0 : Fin 1) jj d) = V m c main_v3 (ix4 b (hd t) jj d) := by
  obtain ⟨e30, e31, e32, e33, e00, e01, e02, e03, e10, e11, e12, e13, -⟩ := idx_facts t
  show V m c main_v3 (((cfg0.win 1).blk t).view.emb (ix4 b (0 : Fin 1) jj d)) = _
  refine congrArg (V m c main_v3) (funext fun a => Fin.ext ?_)
  match a with
  | ⟨0, _⟩ => show win0_1.index t (0 : Fin 4) * 4 + 1 * b.val = b.val; omega
  | ⟨1, _⟩ => show win0_1.index t (1 : Fin 4) * 1 + 1 * 0 = win0_3.index t (1 : Fin 4); omega
  | ⟨2, _⟩ => show win0_1.index t (2 : Fin 4) * 2048 + 1 * jj.val = jj.val; omega
  | ⟨3, _⟩ => show win0_1.index t (3 : Fin 4) * 64 + 1 * d.val = d.val; omega

theorem v_read (c : Dev nD) (t : Fin cfg0.N) (b : Fin 4) (jj : Fin 2048) (d : Fin 64) :
    iblk m c 2 t (ix4 b (0 : Fin 1) jj d) = V m c main_v4 (ix4 b (hd t) jj d) := by
  obtain ⟨e30, e31, e32, e33, e00, e01, e02, e03, e10, e11, e12, e13, e20, e21, e22, e23⟩ := idx_facts t
  show V m c main_v4 (((cfg0.win 2).blk t).view.emb (ix4 b (0 : Fin 1) jj d)) = _
  refine congrArg (V m c main_v4) (funext fun a => Fin.ext ?_)
  match a with
  | ⟨0, _⟩ => show win0_2.index t (0 : Fin 4) * 4 + 1 * b.val = b.val; omega
  | ⟨1, _⟩ => show win0_2.index t (1 : Fin 4) * 1 + 1 * 0 = win0_3.index t (1 : Fin 4); omega
  | ⟨2, _⟩ => show win0_2.index t (2 : Fin 4) * 2048 + 1 * jj.val = jj.val; omega
  | ⟨3, _⟩ => show win0_2.index t (3 : Fin 4) * 64 + 1 * d.val = d.val; omega

/-- Point t's output block at (b, ·, r, v) is the function at (b, head, row, v). -/
theorem point_value (c : Dev nD) (t : Fin cfg0.N) (b : Fin 4) (z : Fin 1) (r : Fin 256) (v : Fin 64) :
    k0_pay3 (Body.acc (iblk m c 0 t) (fun k => View.ld (iblk m c 1 t) (Body.RK k))
        (fun k => View.ld (iblk m c 2 t) (Body.RK k)) k0_t1_loop.trips) (ix4 b z r v)
      = attnK (V m c main_v2) (V m c main_v3) (V m c main_v4) (ix4 b (hd t) (qrow t r) v) := by
  refine (Block.block_value (iblk m c 0 t) (iblk m c 1 t) (iblk m c 2 t) b z r v).trans ?_
  unfold attnK
  refine Finset.sum_congr rfl fun jj _ => ?_
  simp only [q_read, k_read, v_read]

/-! ## From blocks to the array -/

/-- WHAT POINT t WRITES BACK is block t of the function of the staged arrays. -/
theorem flushed_eq (c : Dev nD) (t : Fin cfg0.N) :
    (dats m 0 c).flushed 3 t
      = ((cfg0.win 3).blk t).view.read (Elt Ideal) (attnK (V m c main_v2) (V m c main_v3) (V m c main_v4)) := by
  rw [flushed3_A, Body.out_eq]
  funext y
  obtain ⟨b, z, r, v, rfl⟩ : ∃ (b : Fin 4) (z : Fin 1) (r : Fin 256) (v : Fin 64), y = ix4 b z r v :=
    ⟨y 0, y 1, y 2, y 3, eq_ix4 y⟩
  refine (point_value m c t b z r v).trans ?_
  obtain ⟨e30, e31, e32, e33, -⟩ := idx_facts t
  show _ = attnK (V m c main_v2) (V m c main_v3) (V m c main_v4) (((cfg0.win 3).blk t).view.emb (ix4 b z r v))
  refine congrArg (attnK (V m c main_v2) (V m c main_v3) (V m c main_v4)) (funext fun a => Fin.ext ?_)
  have hz : z.val < 1 := z.isLt
  match a with
  | ⟨0, _⟩ => show b.val = win0_3.index t (0 : Fin 4) * 4 + 1 * b.val; omega
  | ⟨1, _⟩ => show win0_3.index t (1 : Fin 4) = win0_3.index t (1 : Fin 4) * 1 + 1 * z.val; omega
  | ⟨2, _⟩ => show win0_3.index t (2 : Fin 4) * 256 + r.val = win0_3.index t (2 : Fin 4) * 256 + 1 * r.val; omega
  | ⟨3, _⟩ => show v.val = win0_3.index t (3 : Fin 4) * 64 + 1 * v.val; omega

/-- An index of the result is in point t's block iff each coordinate is in the block's range. -/
theorem mem_blk (t : Fin cfg0.N) (i : S4x16x2048x64.Idx) :
    i ∈ ((cfg0.win 3).blk t).view.set ↔ ∀ a : Fin 4, win0_3.index t a * S4x1x256x64.size a ≤ (i a).val
      ∧ (i a).val < win0_3.index t a * S4x1x256x64.size a + S4x1x256x64.size a := by
  show i ∈ ((View.whole main_v5).slice (win0_3.rect t)).set ↔ _
  rw [View.set_slice_whole, Rect.mem_set_unit]
  exact Iff.rfl

/-- The 128 blocks cover the result: index (b, h, s, v) is in the block of head h and query tile s / 256. -/
theorem cover (i : S4x16x2048x64.Idx) :
    ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ := idx_onto ⟨(i 1).val, h1⟩ ⟨(i 2).val / 256, by omega⟩
  have q0 : win0_3.index t (0 : Fin 4) = 0 := congrFun ht 0
  have q1 : win0_3.index t (1 : Fin 4) = (i 1).val := congrFun ht 1
  have q2 : win0_3.index t (2 : Fin 4) = (i 2).val / 256 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 4 ≤ (i 0).val ∧ (i 0).val < win0_3.index t (0 : Fin 4) * 4 + 4; omega
  | ⟨1, _⟩ => show win0_3.index t (1 : Fin 4) * 1 ≤ (i 1).val ∧ (i 1).val < win0_3.index t (1 : Fin 4) * 1 + 1; omega
  | ⟨2, _⟩ => show win0_3.index t (2 : Fin 4) * 256 ≤ (i 2).val ∧ (i 2).val < win0_3.index t (2 : Fin 4) * 256 + 256; omega
  | ⟨3, _⟩ => show win0_3.index t (3 : Fin 4) * 64 ≤ (i 3).val ∧ (i 3).val < win0_3.index t (3 : Fin 4) * 64 + 64; omega

/-- THE RESULT ARRAY after the run: `attn` of the three arguments. -/
theorem final (c : Dev nD) :
    (dats m 0 c).arrAt 3 cfg0.N
      = attn (m ((c : Thread nD τ).loc main_arg0)) (m ((c : Thread nD τ).loc main_arg1)) (m ((c : Thread nD τ).loc main_arg2)) := by
  refine ((dats m 0 c).arrAt_eq_of_cover 3 (attnK (V m c main_v2) (V m c main_v3) (V m c main_v4))
    (fun t _ => flushed_eq m c t) cover).trans ?_
  exact (attnK_congr (V2_eq m c) (V3_eq m c) (V4_eq m c)).trans
    (attnK_eq (m ((c : Thread nD τ).loc main_arg0)) (m ((c : Thread nD τ).loc main_arg1)) (m ((c : Thread nD τ).loc main_arg2)))

/-- The kernel's run with its result named: `attn` of the arguments, which end unchanged. -/
theorem run : θ_run defs (onTc (τ := τ) (main (F := Ideal))) ⟨m, fun _ => 0, ρ⟩ fun r => ∀ c : Dev nD,
      r.2.mem ((c : Thread nD τ).loc main_v5)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.AttnValue

end
-- ==== Proof.RefValue.lean ====
/-
  The reference computes `attn`: its stages read one at a time. The scaled logits are `logit`; the
  running maximum over the batch axis, after the extra `max` with -∞, is `mx` of the four logits;
  the exponentials' sum started at 0 is their plain sum; the quotient is `wgt`; and the last
  contraction over the 2048 keys is `attn`'s sum.
-/
import proofs.«169081_j10711648436709_2_alg».proof.Proof.Gen.ReferenceIdeal.Read
import proofs.«169081_j10711648436709_2_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Attn
open scoped BigOperators

variable (Q K V : FVec Ideal S4x16x2048x64 .f32)

/-- The batch axis dropped from the logits' shape. -/
theorem red : S4x16x2048x2048.Reduces [0] S16x2048x2048 := by decide

/-- The scaled logits. -/
theorem v2_eq (y : S4x16x2048x2048.Idx) :
    val_main_v2 (F := Ideal) Q K y = logit Q K (y 1) (y 2) (y 3) (y 0) := by
  rw [val_main_v2_apply, val_main_v0_apply, val_main_v1_apply, val_main_cst_apply]
  have el : ∀ k, lidx_main_v0 y k = ix4 (y 0) (y 1) (y 2) k := fun k => funext fun a => Fin.ext (by
    match a with | ⟨0, _⟩ => rfl | ⟨1, _⟩ => rfl | ⟨2, _⟩ => rfl | ⟨3, _⟩ => rfl)
  have er : ∀ k, ridx_main_v0 y k = ix4 (y 0) (y 1) (y 3) k := fun k => funext fun a => Fin.ext (by
    match a with | ⟨0, _⟩ => rfl | ⟨1, _⟩ => rfl | ⟨2, _⟩ => rfl | ⟨3, _⟩ => rfl)
  simp only [el, er, Ideal.hostDivf_def, Ideal.ofBits_def]
  rfl

/-- The maximum over the batch axis. -/
theorem v5_eq (z : S16x2048x2048.Idx) :
    val_main_v5 (F := Ideal) Q K z = mx (logit Q K (z 0) (z 1) (z 2)) := by
  rw [val_main_v5_apply, val_main_v4_apply, val_main_cst_1_apply]
  unfold val_main_v3
  rw [Host.reduce_eq_fold_single FloatOps.maximumf _ _ reducesTo_S4x16x2048x2048_S16x2048x2048_d0 red h_S_]
  simp only [Ideal.maximumf_def, Ideal.ofBits_def]
  rw [max_neg_inf]
  unfold mx
  refine Finset.fold_congr fun b _ => ?_
  exact v2_eq Q K (red.lift z b)

/-- The exponentials. -/
theorem v9_eq (y : S4x16x2048x2048.Idx) :
    val_main_v9 (F := Ideal) Q K y
      = Ideal.exp (logit Q K (y 1) (y 2) (y 3) (y 0) - mx (logit Q K (y 1) (y 2) (y 3))) := by
  rw [val_main_v9_apply, val_main_v8_apply, val_main_v7_apply, val_main_v6_apply, v5_eq, v2_eq]
  simp only [Ideal.hostUnary_exp_def, Ideal.subf_def]
  rfl

/-- Their sum over the batch axis. -/
theorem v10_eq (z : S16x2048x2048.Idx) :
    val_main_v10 (F := Ideal) Q K z
      = ∑ b : Fin 4, Ideal.exp (logit Q K (z 0) (z 1) (z 2) b - mx (logit Q K (z 0) (z 1) (z 2))) := by
  rw [val_main_v10_apply, val_main_cst_2_apply]
  simp only [Ideal.ofBits_def, Ideal.ofBits_zero_f32, zero_add]
  refine Finset.sum_congr rfl fun b _ => ?_
  rw [v9_eq]
  rfl

/-- The softmax weights. -/
theorem v13_eq (y : S4x16x2048x2048.Idx) :
    val_main_v13 (F := Ideal) Q K y = wgt (logit Q K (y 1) (y 2) (y 3)) (y 0) := by
  rw [val_main_v13_apply, val_main_v12_apply, val_main_v11_apply, v10_eq, v9_eq]
  simp only [Ideal.hostDivf_def]
  rfl

/-- THE REFERENCE'S RESULT is `attn` of the three arguments. -/
theorem ref_eq : val_main_v14 (F := Ideal) Q K V = attn Q K V := by
  funext x
  rw [val_main_v14_apply]
  unfold attn
  refine Finset.sum_congr rfl fun j _ => ?_
  rw [v13_eq]
  have er : ridx_main_v14 x j = ix4 (x 0) (x 1) j (x 3) := funext fun a => Fin.ext (by
    match a with | ⟨0, _⟩ => rfl | ⟨1, _⟩ => rfl | ⟨2, _⟩ => rfl | ⟨3, _⟩ => rfl)
  rw [er]
  rfl

end Cert.ReferenceIdeal.RefValue

end
-- ==== Proof.lean ====
/-
  The claim: the attention kernel and its reference are equal over the extended reals.
  Both compute, at output index (b, h, i, v), the sum over the 2048 keys j of the softmax weight of batch
  entry b — the softmax runs over the batch axis of size 4 — among the logits of (h, i, j), times value
  (b, h, j, v); a logit is the 64-deep contraction of a query row with a key row, divided by 4.
  The kernel scales the queries by 1/4 on the host before the launch and sums the keys in four chunks of
  512 into an accumulator started at zero; the reference divides the contraction by 4 and sums once.
  A nonnegative finite factor distributes over a finite sum of extended reals and sums re-associate, so
  the two are one function (`Cert.Attn.attn`) of the argument arrays, whatever the inputs hold: the
  precondition is not used by the value claim.
  The three frames are the generated frame runs; the kernel's value is read off its frame run
  (`Cert.KernelIdeal.AttnValue.run`), the reference's off its generated run and stage lemmas
  (`Cert.ReferenceIdeal.RefValue.ref_eq`).
-/
import proofs.«169081_j10711648436709_2_alg».proof.Defs
import proofs.«169081_j10711648436709_2_alg».proof.Proof.Gen.Kernel
import proofs.«169081_j10711648436709_2_alg».proof.Proof.Gen.Kernel.Frame
import proofs.«169081_j10711648436709_2_alg».proof.Proof.Gen.KernelIdeal
import proofs.«169081_j10711648436709_2_alg».proof.Proof.Gen.KernelIdeal.Frame
import proofs.«169081_j10711648436709_2_alg».proof.Proof.Gen.KernelIdeal.Value
import proofs.«169081_j10711648436709_2_alg».proof.Proof.Gen.ReferenceIdeal
import proofs.«169081_j10711648436709_2_alg».proof.Proof.Gen.ReferenceIdeal.Run
import proofs.«169081_j10711648436709_2_alg».proof.Proof.Gen.ReferenceIdeal.Read
import proofs.«169081_j10711648436709_2_alg».proof.Proof.Gen.Pre_finite_inputs
import proofs.«169081_j10711648436709_2_alg».proof.Proof.KernelValue
import proofs.«169081_j10711648436709_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- Both runs end with the result array at `attn` of arguments that agree. -/
theorem algebraic : Cert.algebraic_KernelIdeal_ReferenceIdeal := by
  intro m ρ m' ρ' _ hagree
  refine ⟨fun c => Cert.Attn.attn (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.AttnValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.ref_eq,
    (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
